-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x768 : Shape := ⟨3, ![128, 1024, 768]⟩
abbrev S96x768 : Shape := ⟨2, ![96, 768]⟩
abbrev S96 : Shape := ⟨1, ![96]⟩
abbrev S1024x96 : Shape := ⟨2, ![1024, 96]⟩
abbrev S_ : Shape := ⟨0, ![]⟩

class Facts : Prop where
  bcast_S_S128x1024x768 : S_.BroadcastsInDim S128x1024x768 (![] : Fin 0 → Fin S128x1024x768.rank)
  reducesTo_S128x1024x768_S_d0_1_2 : S128x1024x768.ReducesTo [0, 1, 2] S_
  h_S_ : 0 < S_.numel
  bcast_S_S96x768 : S_.BroadcastsInDim S96x768 (![] : Fin 0 → Fin S96x768.rank)
  reducesTo_S96x768_S_d0_1 : S96x768.ReducesTo [0, 1] S_
  bcast_S_S96 : S_.BroadcastsInDim S96 (![] : Fin 0 → Fin S96.rank)
  reducesTo_S96_S_d0 : S96.ReducesTo [0] S_
  bcast_S_S1024x96 : S_.BroadcastsInDim S1024x96 (![] : Fin 0 → Fin S1024x96.rank)
  reducesTo_S1024x96_S_d0_1 : S1024x96.ReducesTo [0, 1] S_

variable [Facts]

def fn_part1 {F : FTy → Type} [FloatOps F] (main_v13 : IVec S_ 1) (main_v16 : IVec S1024x96 1) : IVec S_ 1 :=
  let main_c_5 : IVec S_ 1 := constantI S_ 1 1#1
  let main_v17 : IVec S_ 1 := (fun x v => Host.reduce IntOp.andi x v reducesTo_S1024x96_S_d0_1 h_S_) main_v16 main_c_5
  let main_v18 : IVec S_ 1 := andi main_v13 main_v17
  main_v18

def fn {F : FTy → Type} [FloatOps F] (main_arg0 : FVec F S128x1024x768 .f32) (main_arg1 : FVec F S96x768 .f32) (main_arg2 : FVec F S96 .f32) (main_arg3 : FVec F S1024x96 .f32) : IVec S_ 1 :=
  let main_v0 : FVec F S128x1024x768 .f32 := Host.absf main_arg0
  let main_cst : FVec F S_ .f32 := constant S_ .f32 0x7F800000#32
  let main_v1 : FVec F S128x1024x768 .f32 := broadcastInDim S128x1024x768 ![] bcast_S_S128x1024x768 main_cst
  let main_v2 : IVec S128x1024x768 1 := cmpf .olt main_v0 main_v1
  let main_c : IVec S_ 1 := constantI S_ 1 1#1
  let main_v3 : IVec S_ 1 := (fun x v => Host.reduce IntOp.andi x v reducesTo_S128x1024x768_S_d0_1_2 h_S_) main_v2 main_c
  let main_v4 : FVec F S96x768 .f32 := Host.absf main_arg1
  let main_cst_0 : FVec F S_ .f32 := constant S_ .f32 0x7F800000#32
  let main_v5 : FVec F S96x768 .f32 := broadcastInDim S96x768 ![] bcast_S_S96x768 main_cst_0
  let main_v6 : IVec S96x768 1 := cmpf .olt main_v4 main_v5
  let main_c_1 : IVec S_ 1 := constantI S_ 1 1#1
  let main_v7 : IVec S_ 1 := (fun x v => Host.reduce IntOp.andi x v reducesTo_S96x768_S_d0_1 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S1024x96 .f32 := Host.absf main_arg3
  let main_cst_4 : FVec F S_ .f32 := constant S_ .f32 0x7F800000#32
  let main_v15 : FVec F S1024x96 .f32 := broadcastInDim S1024x96 ![] bcast_S_S1024x96 main_cst_4
  let main_v16 : IVec S1024x96 1 := cmpf .olt main_v14 main_v15
  fn_part1 (F := F) main_v13 main_v16
-- ==== Kernel.lean ====
abbrev S128x1024x768 : Shape := ⟨3, ![128, 1024, 768]⟩
abbrev S96x768 : Shape := ⟨2, ![96, 768]⟩
abbrev S96 : Shape := ⟨1, ![96]⟩
abbrev S1024x96 : Shape := ⟨2, ![1024, 96]⟩
abbrev S1x96 : Shape := ⟨2, ![1, 96]⟩
abbrev S128x1024x96 : Shape := ⟨3, ![128, 1024, 96]⟩
abbrev S4x1024x768 : Shape := ⟨3, ![4, 1024, 768]⟩
abbrev S4x1024x96 : Shape := ⟨3, ![4, 1024, 96]⟩
abbrev S4096x768 : Shape := ⟨2, ![4096, 768]⟩
abbrev S4096x96 : Shape := ⟨2, ![4096, 96]⟩
abbrev S1x1x96 : Shape := ⟨3, ![1, 1, 96]⟩
abbrev S1x1024x96 : Shape := ⟨3, ![1, 1024, 96]⟩

abbrev nBuf : Space → Nat
  | .hbm => 6
  | .vmem => 7
  | .smem => 0
  | _ => 0

abbrev bufTy : (tb : Table) → Fin (tcTables nBuf tb) → BufTy
  | .hbm, ⟨0, _⟩ => ⟨S128x1024x768, .f32⟩
  | .hbm, ⟨1, _⟩ => ⟨S96x768, .f32⟩
  | .hbm, ⟨2, _⟩ => ⟨S96, .f32⟩
  | .hbm, ⟨3, _⟩ => ⟨S1024x96, .f32⟩
  | .hbm, ⟨4, _⟩ => ⟨S1x96, .f32⟩
  | .hbm, ⟨5, _⟩ => ⟨S128x1024x96, .f32⟩
  | .local _ .vmem, ⟨0, _⟩ => ⟨S4x1024x768, .f32⟩
  | .local _ .vmem, ⟨1, _⟩ => ⟨S4x1024x768, .f32⟩
  | .local _ .vmem, ⟨2, _⟩ => ⟨S96x768, .f32⟩
  | .local _ .vmem, ⟨3, _⟩ => ⟨S1x96, .f32⟩
  | .local _ .vmem, ⟨4, _⟩ => ⟨S1024x96, .f32⟩
  | .local _ .vmem, ⟨5, _⟩ => ⟨S4x1024x96, .f32⟩
  | .local _ .vmem, ⟨6, _⟩ => ⟨S4x1024x96, .f32⟩
  | _, _ => ⟨S128x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x1024x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S96_S1x96 : S96.ShapeCasts S1x96
  inb_S4x1024x768_S4x1024x768_0_0_0 : ∀ a, (![0, 0, 0] : Fin 3 → Nat) a + S4x1024x768.size a ≤ S4x1024x768.size a
  h_S4x1024x768 : 0 < S4x1024x768.numel
  shapeCasts_S4x1024x768_S4096x768 : S4x1024x768.ShapeCasts S4096x768
  inb_S96x768_S96x768_0_0 : ∀ a, (![0, 0] : Fin 2 → Nat) a + S96x768.size a ≤ S96x768.size a
  h_S96x768 : 0 < S96x768.numel
  shapeCasts_S4096x96_S4x1024x96 : S4096x96.ShapeCasts S4x1024x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  shapeCasts_S1x96_S1x1x96 : S1x96.ShapeCasts S1x1x96
  broadcasts_S1x1x96_S4x1024x96 : S1x1x96.Broadcasts S4x1024x96
  inb_S1024x96_S1024x96_0_0 : ∀ a, (![0, 0] : Fin 2 → Nat) a + S1024x96.size a ≤ S1024x96.size a
  h_S1024x96 : 0 < S1024x96.numel
  shapeCasts_S1024x96_S1x1024x96 : S1024x96.ShapeCasts S1x1024x96
  broadcasts_S1x1024x96_S4x1024x96 : S1x1024x96.Broadcasts S4x1024x96
  inb_S4x1024x96_S4x1024x96_0_0_0 : ∀ a, (![0, 0, 0] : Fin 3 → Nat) a + S4x1024x96.size a ≤ S4x1024x96.size a
  h_S4x1024x96 : 0 < S4x1024x96.numel
  dot_S4096x768_S96x768_S4096x96_1_1_0_0_n_n_wf : DotDims.WF S4096x768 S96x768 S4096x96 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x768.size a ≤ S128x1024x768.size a
  hwx0_0 : ∀ i : grid0.Coords, EltTy.bits .f32 = 32 ∨ (Rect.block (s := S128x1024x768) S4x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x768.size a ≤ S96x768.size a
  hwx0_1 : ∀ i : grid0.Coords, EltTy.bits .f32 = 32 ∨ (Rect.block (s := S96x768) S96x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x96.size a ≤ S1024x96.size a
  hwx0_3 : ∀ i : grid0.Coords, EltTy.bits .f32 = 32 ∨ (Rect.block (s := S1024x96) S1024x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1024x96.size a ≤ S128x1024x96.size a
  hwx0_4 : ∀ i : grid0.Coords, EltTy.bits .f32 = 32 ∨ (Rect.block (s := S128x1024x96) S4x1024x96.size (cc0_transform_4 i) (hinb0_4 i)).WholeWords (EltTy.packing .f32)

variable [Facts₀]

def dot_S4096x768_S96x768_S4096x96_1_1_0_0_n_n : DotDims S4096x768 S96x768 S4096x96 where
  lhsContracting := [1]
  rhsContracting := [1]
  lhsNonContracting := [0]
  rhsNonContracting := [0]
  lhsBatch := []
  rhsBatch := []
  wf := dot_S4096x768_S96x768_S4096x96_1_1_0_0_n_n_wf

abbrev win0_0 : Pipeline.Window sig grid0 :=
  Pipeline.Window.ofSpec (Memref.whole main_arg0) S4x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x1024x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x1024x768 : Shape := ⟨3, ![128, 1024, 768]⟩
abbrev S96x768 : Shape := ⟨2, ![96, 768]⟩
abbrev S96 : Shape := ⟨1, ![96]⟩
abbrev S1024x96 : Shape := ⟨2, ![1024, 96]⟩
abbrev S1024 : Shape := ⟨1, ![1024]⟩
abbrev S128x1024x96 : Shape := ⟨3, ![128, 1024, 96]⟩
abbrev S1x1x96 : Shape := ⟨3, ![1, 1, 96]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1x1024x96 : Shape := ⟨3, ![1, 1024, 96]⟩

abbrev nBuf : Space → Nat
  | .hbm => 35
  | .vmem => 0
  | .smem => 0
  | _ => 0

abbrev bufTy : (tb : Table) → Fin (tcTables nBuf tb) → BufTy
  | .hbm, ⟨0, _⟩ => ⟨S128x1024x768, .f32⟩
  | .hbm, ⟨1, _⟩ => ⟨S96x768, .f32⟩
  | .hbm, ⟨2, _⟩ => ⟨S96, .f32⟩
  | .hbm, ⟨3, _⟩ => ⟨S1024x96, .f32⟩
  | .hbm, ⟨4, _⟩ => ⟨S1024, .i32⟩
  | .hbm, ⟨5, _⟩ => ⟨S128x1024x96, .f32⟩
  | .hbm, ⟨6, _⟩ => ⟨S1x1x96, .f32⟩
  | .hbm, ⟨7, _⟩ => ⟨S128x1024x96, .f32⟩
  | .hbm, ⟨8, _⟩ => ⟨S128x1024x96, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1, .i32⟩
  | .hbm, ⟨18, _⟩ => ⟨S_, .i32⟩
  | .hbm, ⟨19, _⟩ => ⟨S1024x1, .i32⟩
  | .hbm, ⟨20, _⟩ => ⟨S1024x1, .i1⟩
  | .hbm, ⟨21, _⟩ => ⟨S1x1, .i32⟩
  | .hbm, ⟨22, _⟩ => ⟨S1024x1, .i32⟩
  | .hbm, ⟨23, _⟩ => ⟨S1024x1, .i1⟩
  | .hbm, ⟨24, _⟩ => ⟨S1024x1, .i1⟩
  | .hbm, ⟨25, _⟩ => ⟨S_, .i1⟩
  | .hbm, ⟨26, _⟩ => ⟨S1024, .i1⟩
  | .hbm, ⟨27, _⟩ => ⟨S1024x96, .f32⟩
  | .hbm, ⟨28, _⟩ => ⟨S1024x96, .i1⟩
  | .hbm, ⟨29, _⟩ => ⟨S_, .f32⟩
  | .hbm, ⟨30, _⟩ => ⟨S1024x96, .f32⟩
  | .hbm, ⟨31, _⟩ => ⟨S1024x96, .f32⟩
  | .hbm, ⟨32, _⟩ => ⟨S1x1024x96, .f32⟩
  | .hbm, ⟨33, _⟩ => ⟨S128x1024x96, .f32⟩
  | .hbm, ⟨34, _⟩ => ⟨S128x1024x96, .f32⟩
  | _, _ => ⟨S128x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]

class Facts₀ : Prop where
  bcast_S96_S1x1x96_2 : S96.BroadcastsInDim S1x1x96 (![2] : Fin 1 → Fin S1x1x96.rank)
  bcast_S1x1x96_S128x1024x96_0_1_2 : S1x1x96.BroadcastsInDim S128x1024x96 (![0, 1, 2] : Fin 3 → Fin S128x1024x96.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x96_0 : S1024.BroadcastsInDim S1024x96 (![0] : Fin 1 → Fin S1024x96.rank)
  bcast_S_S1024x96 : S_.BroadcastsInDim S1024x96 (![] : Fin 0 → Fin S1024x96.rank)
  bcast_S1024x96_S1x1024x96_1_2 : S1024x96.BroadcastsInDim S1x1024x96 (![1, 2] : Fin 2 → Fin S1x1024x96.rank)
  bcast_S1x1024x96_S128x1024x96_0_1_2 : S1x1024x96.BroadcastsInDim S128x1024x96 (![0, 1, 2] : Fin 3 → Fin S128x1024x96.rank)
  dot_S128x1024x768_S96x768_S128x1024x96_2_1_01_0_n_n_wf : DotDims.WF S128x1024x768 S96x768 S128x1024x96 [2] [1] [0, 1] [0] [] []
  gather_S1024x96_S1024x1_S1024x96_1_0_n_n_0_1_196_wf : GatherDims.WF S1024x96 S1024x1 S1024x96 [1] [0] [] [0] [] 1 ![1, 96]

variable [Facts₀]

def dot_S128x1024x768_S96x768_S128x1024x96_2_1_01_0_n_n : DotDims S128x1024x768 S96x768 S128x1024x96 where
  lhsContracting := [2]
  rhsContracting := [1]
  lhsNonContracting := [0, 1]
  rhsNonContracting := [0]
  lhsBatch := []
  rhsBatch := []
  wf := dot_S128x1024x768_S96x768_S128x1024x96_2_1_01_0_n_n_wf
def gather_S1024x96_S1024x1_S1024x96_1_0_n_n_0_1_196 : GatherDims S1024x96 S1024x1 S1024x96 where
  offsetDims := [1]
  collapsedSliceDims := [0]
  operandBatchingDims := []
  startIndicesBatchingDims := []
  startIndexMap := [0]
  indexVectorDim := 1
  sliceSizes := ![1, 96]
  wf := gather_S1024x96_S1024x1_S1024x96_1_0_n_n_0_1_196_wf

class Facts : Prop extends Facts₀ where

variable [Facts]
-- ==== Proof.ReferenceRun.lean ====
/-
  The reference program's run, read back.

  The reference computes, for a batch of patch sequences, a linear projection of every patch plus a bias plus a
  positional embedding: `encoded[b, n, p] = (Σ_d patch[b, n, d] · W[p, d] + bias[p]) + pos[n, p]`, where `pos` is the
  positional table looked up at the positions `0, 1, …, 1023` in order. The lookup is an outlined function: it wraps
  negative positions (adds the table's length where the position is below zero), gathers the table's rows at the
  positions, and keeps a gathered row only where its position lies in `[0, 1023]`, putting a not-a-number elsewhere.

  Here the program is written out as the list of its host operations in order — the two outlined functions' operations
  in place at their calls —, and its run is read back: every execution ends with the result array at the operations'
  composed term of the argument arrays (`encoded`, with the lookup chain kept as the one function `lookup`), and the
  arguments unchanged.
-/
import proofs.«103978_g51075751084523_cont_8to1c4_36_6_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The positions after wrapping, as a column: a position below zero has the table's length added, any other is kept. -/
def wrapped (positions : IVec S1024 32) : IVec S1024x1 32 :=
  broadcastInDim S1024x1 ![0] bcast_S1024_S1024x1_0
    (select (cmpi .slt positions (broadcastInDim S1024 ![] bcast_S_S1024 (constantI S_ 32 0#32)))
      (addi positions (broadcastInDim S1024 ![] bcast_S_S1024 (constantI S_ 32 1024#32))) positions)

/-- Per position, whether the wrapped position lies in `[0, 1023]`: the conjunction, along the column's unit axis, of
    the two comparisons. -/
def inRange (idx : IVec S1024x1 32) : IVec S1024 1 :=
  Host.reduce IntOp.andi
    (andi (cmpi .sge idx (broadcastInDim S1024x1 ![] bcast_S_S1024x1 (constantI S_ 32 0#32)))
      (cmpi .sle idx (broadcastInDim S1024x1 ![0, 1] bcast_S1x1_S1024x1_0_1
        (broadcastInDim S1x1 ![1] bcast_S1_S1x1_1 (constantI S1 32 1023#32)))))
    (constantI S_ 1 1#1) reducesTo_S1024x1_S1024_d1 h_S_

/-- The table looked up at the positions: the gathered rows where the wrapped position is in range, a not-a-number
    elsewhere. -/
def lookup (table : FVec F S1024x96 .f32) (positions : IVec S1024 32) : FVec F S1024x96 .f32 :=
  select (broadcastInDim S1024x96 ![0] bcast_S1024_S1024x96_0 (inRange (wrapped positions)))
    (Host.gather gather_S1024x96_S1024x1_S1024x96_1_0_n_n_0_1_196 table (wrapped positions))
    (broadcastInDim S1024x96 ![] bcast_S_S1024x96 (constant S_ .f32 0x7FC00000#32))

/-- The reference's result as one term of its arguments: the projection, plus the bias along the last axis, plus the
    looked-up table along the last two. -/
def encoded (patch : FVec F S128x1024x768 .f32) (W : FVec F S96x768 .f32) (bias : FVec F S96 .f32)
    (table : FVec F S1024x96 .f32) : FVec F S128x1024x96 .f32 :=
  addf
    (addf (Host.dotGeneral dot_S128x1024x768_S96x768_S128x1024x96_2_1_01_0_n_n none patch W)
      (broadcastInDim S128x1024x96 ![0, 1, 2] bcast_S1x1x96_S128x1024x96_0_1_2
        (broadcastInDim S1x1x96 ![2] bcast_S96_S1x1x96_2 bias)))
    (broadcastInDim S128x1024x96 ![0, 1, 2] bcast_S1x1024x96_S128x1024x96_0_1_2
      (broadcastInDim S1x1024x96 ![1, 2] bcast_S1024x96_S1x1024x96_1_2 (lookup table (iotaInDim S1024 32 0))))

/-- @main's operations in order, the calls unfolded: five of its own (the positions, the projection, the bias
    broadcast twice and added), the lookup's twenty-three into the call's buffers — among them the one select of the
    function it calls in turn —, and three more of its own (the looked-up table broadcast twice and added). -/
abbrev ops : List (HloOp τ sig (Elt F)) :=
  [ nullary main_v0 (iotaInDim S1024 32 0),
    binary main_arg0 main_arg1 main_v1 ((fun l r => Host.dotGeneral dot_S128x1024x768_S96x768_S128x1024x96_2_1_01_0_n_n none l r) : (⟨S128x1024x768, .f32⟩ : BufTy).Contents (Elt F) → (⟨S96x768, .f32⟩ : BufTy).Contents (Elt F) → (⟨S128x1024x96, .f32⟩ : BufTy).Contents (Elt F)),
    unary main_arg2 main_v2 (broadcastInDim S1x1x96 ![2] bcast_S96_S1x1x96_2 : (⟨S96, .f32⟩ : BufTy).Contents (Elt F) → (⟨S1x1x96, .f32⟩ : BufTy).Contents (Elt F)),
    unary main_v2 main_v3 (broadcastInDim S128x1024x96 ![0, 1, 2] bcast_S1x1x96_S128x1024x96_0_1_2 : (⟨S1x1x96, .f32⟩ : BufTy).Contents (Elt F) → (⟨S128x1024x96, .f32⟩ : BufTy).Contents (Elt F)),
    binary main_v1 main_v3 main_v4 (addf : (⟨S128x1024x96, .f32⟩ : BufTy).Contents (Elt F) → (⟨S128x1024x96, .f32⟩ : BufTy).Contents (Elt F) → (⟨S128x1024x96, .f32⟩ : BufTy).Contents (Elt F)),
    TRef.nullary main_call0.c (constantI S_ 32 0#32),
    TRef.unary main_call0.c main_call0.v0 (broadcastInDim S1024 ![] bcast_S_S1024),
    TRef.binary (.of main_v0) main_call0.v0 main_call0.v1 (cmpi .slt),
    TRef.nullary main_call0.c_0 (constantI S_ 32 1024#32),
    TRef.unary main_call0.c_0 main_call0.v2 (broadcastInDim S1024 ![] bcast_S_S1024),
    TRef.binary (.of main_v0) main_call0.v2 main_call0.v3 addi,
    TRef.ternary main_call0.v1 main_call0.v3 (.of main_v0) main_call0.call0.v0 select,
    TRef.unary main_call0.call0.v0 main_call0.v5 (broadcastInDim S1024x1 ![0] bcast_S1024_S1024x1_0),
    TRef.nullary main_call0.c_1 (constantI S1 32 1023#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg3) main_call0.v5 main_call0.v13 (fun x i => Host.gather gather_S1024x96_S1024x1_S1024x96_1_0_n_n_0_1_196 x i),
    TRef.unary main_call0.v12 main_call0.v14 (broadcastInDim S1024x96 ![0] bcast_S1024_S1024x96_0),
    TRef.nullary main_call0.cst (constant S_ .f32 0x7FC00000#32),
    TRef.unary main_call0.cst main_call0.v15 (broadcastInDim S1024x96 ![] bcast_S_S1024x96),
    TRef.ternary main_call0.v14 main_call0.v13 main_call0.v15 main_call0.v16 select,
    unary main_v5 main_v6 (broadcastInDim S1x1024x96 ![1, 2] bcast_S1024x96_S1x1024x96_1_2 : (⟨S1024x96, .f32⟩ : BufTy).Contents (Elt F) → (⟨S1x1024x96, .f32⟩ : BufTy).Contents (Elt F)),
    unary main_v6 main_v7 (broadcastInDim S128x1024x96 ![0, 1, 2] bcast_S1x1024x96_S128x1024x96_0_1_2 : (⟨S1x1024x96, .f32⟩ : BufTy).Contents (Elt F) → (⟨S128x1024x96, .f32⟩ : BufTy).Contents (Elt F)),
    binary main_v4 main_v7 main_v8 (addf : (⟨S128x1024x96, .f32⟩ : BufTy).Contents (Elt F) → (⟨S128x1024x96, .f32⟩ : BufTy).Contents (Elt F) → (⟨S128x1024x96, .f32⟩ : BufTy).Contents (Elt F)) ]

set_option maxRecDepth 2048 in
/-- @main is that straight line: with the two functions' definitions unfolded at their calls both sides are one chain of
    host steps once the sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub ..⟩

attribute [local irreducible] Host.reduce Host.gather in
set_option maxRecDepth 8192 in
/-- The fold of the operations at the result buffer is `encoded` of the launch contents of the four arguments: each
    operation writes its own buffer and reads buffers written before it, so the fold unrolls to the composed term. -/
theorem result_eq (V : Valuation τ sig (Elt F)) :
    after ops V (main_v8 : DevRef τ sig)
      = encoded (V (main_arg0 : DevRef τ sig)) (V (main_arg1 : DevRef τ sig)) (V (main_arg2 : DevRef τ sig))
          (V (main_arg3 : DevRef τ sig)) := by
  after_results_simp
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl

/-- On every device, for any float values, from any memory with zero counters: every weakly fair execution of @main
    terminates with the result at `encoded` of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = encoded (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v8).trans (result_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.HandRun

end
-- ==== Proof.LibTakeRows.lean ====
/-
  Looking rows up in a table: two operations read at an entry, for any sizes.

  A lookup of rows of an `N × C` table at a column of `R` start positions gives an `R × C` array whose row `r` is the
  table's row at position `r`'s start index, that index read as a signed integer and clamped into `[0, N − 1]`. And a
  conjunction taken along some axes of an array of one-bit flags, started from the flag one, is one wherever every flag
  is one.
-/
import Idealize.ShloMosaic.Lib.ValueIdx
import Idealize.ShloMosaic.Lib.ReduceAll

noncomputable section

namespace Cert.Lib.TakeRows

open Idealize.ShloMosaic Idealize.ShloMosaic.ValueIdx

/-! ## A conjunction of flags that are all one -/

/-- A left fold of the conjunction over flags that are all one, started from one, is one. -/
theorem foldl_andi_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_all_one f l fun n hn => h n (List.mem_cons_of_mem _ hn)

/-- A conjunction along any axes of an array of flags that are all one, started from one, is one at every result
    index. -/
theorem reduce_andi_all_one {s t u : Shape} {axes : List (Fin s.rank)} (x : s.Idx → BitVec 1) (init : u.Idx → BitVec 1)
    (h : s.ReducesTo axes t) (hu : 0 < u.numel) (j : t.Idx) (hx : ∀ i, x i = 1#1) (hinit : init (Shape.Idx.first hu) = 1#1) :
    Host.reduce IntOp.andi x init h hu j = 1#1 := by
  rw [Host.reduce_eq_foldl, hinit]
  exact foldl_andi_all_one x _ fun i _ => hx i

/-! ## Rows of a table at a column of start positions -/

section Rows
variable {α : Type}

/-- The dimension numbers of a row lookup: operand `[N, C]`, start positions `[R, 1]` (the unit axis holds the one
    component of a start index, which addresses the operand's rows), result `[R, C]`; each slice is one whole row. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE LOOKUP READ AT `(r, p)`: the table at the row `idx[r, 0]` names — read signed and clamped into `[0, N − 1]` —
    and column `p`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (p : Fin C) :
    Host.gather (rowsDims N R C wf) x idx (ix2 r p)
      = x (ix2 ⟨min (idx (ix2 r ⟨0, Nat.one_pos⟩)).toInt.toNat (N - 1), by omega⟩ p) := by
  unfold Host.gather
  congr 1
  funext a
  refine Fin.ext ?_
  match a with
  | ⟨0, _⟩ =>
    show (rowsDims N R C wf).start (ix2 r p) idx 0 + (rowsDims N R C wf).batchCoord (ix2 r p) 0
      + (rowsDims N R C wf).offCoord (ix2 r p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 r p) ⟨List.idxOf (0 : Fin 2) (rowsDims N R C wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    show (rowsDims N R C wf).start (ix2 r p) idx 1 + (rowsDims N R C wf).batchCoord (ix2 r p) 1
      + (rowsDims N R C wf).offCoord (ix2 r p) 1 = p.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rowsDims N R C wf).startIndexMap from h10)]
    unfold GatherDims.offCoord
    rw [dif_pos (show (1 : Fin 2) ∈ (rowsDims N R C wf).sKept from
      (GatherDims.mem_sKept _ _).mpr ⟨h10, List.not_mem_nil⟩)]
    have key : ∀ (q : Nat) (hq : q < ([1] : List (Fin 2)).length), (ix2 r p (([1] : List (Fin 2))[q]'hq)).val = p.val := by
      intro q hq
      have hq0 : q = 0 := by
        have : q < 1 := hq
        omega
      subst hq0; rfl
    simp only [Nat.zero_add]
    exact key _ _

end Rows

end Cert.Lib.TakeRows

end
-- ==== Proof.LibWords.lean ====
import Idealize.ShloMosaic.PureOps

/-!
# Small 32-bit words as the numbers they hold

A natural number below `2^31` written as a 32-bit word is non-negative as a signed integer and reads back as itself;
two numbers below `2^32` give equal words only when they are equal; and a word-level sum or product of small numbers
is the word of the sum or product. With these an index computed in 32-bit arithmetic is compared as a number.
-/

namespace Idealize.ShloMosaic.Words

/-- A number below `2^32` reads back from its word. -/
theorem toNat_ofNat_of_lt {n : ℕ} (h : n < 2 ^ 32) : (BitVec.ofNat 32 n).toNat = n := by
  rw [BitVec.toNat_ofNat]; exact Nat.mod_eq_of_lt h

/-- A number below `2^31` reads back from its word as a signed integer. -/
theorem toInt_ofNat_of_lt {n : ℕ} (h : n < 2 ^ 31) : (BitVec.ofNat 32 n).toInt = (n : ℤ) := by
  have hn : (BitVec.ofNat 32 n).toNat = n := toNat_ofNat_of_lt (by omega)
  rw [BitVec.toInt_eq_toNat_of_lt (by rw [hn]; omega), hn]

/-- Numbers below `2^32` with equal words are equal. -/
theorem ofNat_inj_of_lt {a b : ℕ} (ha : a < 2 ^ 32) (hb : b < 2 ^ 32) : BitVec.ofNat 32 a = BitVec.ofNat 32 b ↔ a = b := by
  constructor
  · intro h
    have := congrArg BitVec.toNat h
    rwa [toNat_ofNat_of_lt ha, toNat_ofNat_of_lt hb] at this
  · intro h; rw [h]

/-- A small number's word is not below zero as a signed integer. -/
theorem cmpi_slt_ofNat_zero {n : ℕ} (h : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    rw [BitVec.slt, toInt_ofNat_of_lt h]
    simp
  rw [this]; rfl

/-- Equality of the words of two numbers below `2^32` is equality of the numbers. -/
theorem cmpi_eq_ofNat {a b : ℕ} (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · rw [if_pos h, h]; simp
  · rw [if_neg h]
    have : (BitVec.ofNat 32 a == BitVec.ofNat 32 b) = false := by
      rw [beq_eq_false_iff_ne]; exact fun e => h ((ofNat_inj_of_lt ha hb).mp e)
    rw [this]; rfl

end Idealize.ShloMosaic.Words
-- ==== Proof.Spec.lean ====
/-
  The patch encoder's result, entry by entry.

  For a batch of 128 sequences of 1024 patches, each patch a vector of 768 numbers, the encoder projects every patch to
  96 numbers with a weight matrix `W` (96 × 768), adds a bias vector, and adds the row of a positional table
  (1024 × 96) that belongs to the patch's place in its sequence:

    `encoding[b, n, p] = (Σ_d patch[b, n, d] · W[p, d] + bias[p]) + table[n, p]`.

  The sum is over the extended reals; the two additions are grouped as written, the bias first.
-/
import Idealize.ShloMosaic.PureOps.Ideal
import Idealize.ShloMosaic.Lib.ValueIdx

noncomputable section

open scoped BigOperators

namespace Cert.PatchEncoding

open Idealize.ShloMosaic Idealize.ShloMosaic.ValueIdx

/-- One entry of the encoding: patch `n` of sequence `b` projected onto output feature `p`, plus that feature's
    bias, plus the positional table's entry for place `n` and feature `p`. -/
def entry (patch : FVec Ideal ⟨3, ![128, 1024, 768]⟩ .f32) (W : FVec Ideal ⟨2, ![96, 768]⟩ .f32)
    (bias : FVec Ideal ⟨1, ![96]⟩ .f32) (table : FVec Ideal ⟨2, ![1024, 96]⟩ .f32)
    (b : Fin 128) (n : Fin 1024) (p : Fin 96) : EReal :=
  (∑ d : Fin 768, patch (ix3 b n d) * W (ix2 p d)) + bias (ix1 p) + table (ix2 n p)

/-- The whole encoding as one array. -/
def encoding (patch : FVec Ideal ⟨3, ![128, 1024, 768]⟩ .f32) (W : FVec Ideal ⟨2, ![96, 768]⟩ .f32)
    (bias : FVec Ideal ⟨1, ![96]⟩ .f32) (table : FVec Ideal ⟨2, ![1024, 96]⟩ .f32) :
    FVec Ideal ⟨3, ![128, 1024, 96]⟩ .f32 :=
  fun i => entry patch W bias table (i 0) (i 1) (i 2)

/-- At an index given by its coordinates the encoding is the entry. -/
theorem encoding_apply (patch : FVec Ideal ⟨3, ![128, 1024, 768]⟩ .f32) (W : FVec Ideal ⟨2, ![96, 768]⟩ .f32)
    (bias : FVec Ideal ⟨1, ![96]⟩ .f32) (table : FVec Ideal ⟨2, ![1024, 96]⟩ .f32) (b : Fin 128) (n : Fin 1024) (p : Fin 96) :
    encoding patch W bias table (ix3 b n p) = entry patch W bias table b n p := rfl

end Cert.PatchEncoding

end
-- ==== Proof.RefValue.lean ====
/-
  The reference computes the encoding.

  Read at an entry `(b, n, p)`, the reference's result is the projection `Σ_d patch[b, n, d] · W[p, d]` (its matrix
  product contracts the last axis of both operands), plus `bias[p]` (the bias broadcast along the last axis), plus the
  looked-up positional table at `(n, p)` (broadcast along the last two axes). The positions looked up are
  `0, 1, …, 1023` in order, every one of them inside the table: none is below zero, so wrapping leaves each as it is;
  each lies in `[0, 1023]`, so every gathered row is kept; and the row gathered at position `n`, its start index
  clamped into `[0, 1023]`, is row `n` itself. So the lookup returns the table, and the reference's result is the
  encoding.
-/
import proofs.«103978_g51075751084523_cont_8to1c4_36_6_alg».proof.Proof.ReferenceRun
import proofs.«103978_g51075751084523_cont_8to1c4_36_6_alg».proof.Proof.LibTakeRows
import proofs.«103978_g51075751084523_cont_8to1c4_36_6_alg».proof.Proof.LibWords
import proofs.«103978_g51075751084523_cont_8to1c4_36_6_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.HandRun
open Idealize.ShloMosaic Idealize.ShloMosaic.ValueIdx Cert.Lib.TakeRows Idealize.ShloMosaic.Words

/-- The extents met below are not the unit extent. -/
theorem ne_one_1024 : ¬ (1024 : ℕ) = 1 := by decide
theorem ne_one_96 : ¬ (96 : ℕ) = 1 := by decide

/-- The word of a natural below `2^31` is at least the zero word, as signed integers. -/
theorem cmpi_sge_ofNat_zero {n : ℕ} (h : n < 2 ^ 31) : IntOp.cmpi .sge (BitVec.ofNat 32 n) 0#32 = 1#1 := by
  rw [IntOp.cmpi_sge, toInt_ofNat_of_lt h, show (0#32 : BitVec 32).toInt = 0 by decide]
  exact Int.natCast_nonneg n

/-- The words of two naturals below `2^31` compare, as signed integers, as the naturals do. -/
theorem cmpi_sle_ofNat {a b : ℕ} (ha : a < 2 ^ 31) (hb : b < 2 ^ 31) (hab : a ≤ b) :
    IntOp.cmpi .sle (BitVec.ofNat 32 a) (BitVec.ofNat 32 b) = 1#1 := by
  rw [IntOp.cmpi_sle, toInt_ofNat_of_lt ha, toInt_ofNat_of_lt hb]
  exact_mod_cast hab

/-! ## The lookup at the positions in order is the table -/

/-- The wrapped position of place `r` is `r`: it is not below zero, so nothing is added. -/
theorem wrapped_positions (r : Fin 1024) (u : Fin 1) :
    wrapped (iotaInDim S1024 32 0) (ix2 r u) = BitVec.ofNat 32 r.val := by
  have hr := r.isLt
  unfold wrapped
  rw [broadcastInDim_apply _ _ _ (ix2 r u) (ix1 r) (fun a => by
    match a with
    | ⟨0, _⟩ => exact (if_neg ne_one_1024).symm)]
  show Scalar.select (IntOp.cmpi .slt (BitVec.ofNat 32 r.val) 0#32) (IntOp.addi (BitVec.ofNat 32 r.val) 1024#32)
    (BitVec.ofNat 32 r.val) = _
  rw [cmpi_slt_ofNat_zero (by omega), select_zero]

/-- Every wrapped position lies in `[0, 1023]`. -/
theorem inRange_positions (r : Fin 1024) : inRange (wrapped (iotaInDim S1024 32 0)) (ix1 r) = 1#1 := by
  unfold inRange
  refine reduce_andi_all_one _ _ _ _ _ (fun i => ?_) rfl
  obtain ⟨r', u, rfl⟩ : ∃ (r' : Fin 1024) (u : Fin 1), i = ix2 r' u := ⟨i 0, i 1, eq_ix2 i⟩
  have hr := r'.isLt
  show IntOp.andi (IntOp.cmpi .sge (wrapped (iotaInDim S1024 32 0) (ix2 r' u)) 0#32)
    (IntOp.cmpi .sle (wrapped (iotaInDim S1024 32 0) (ix2 r' u)) (BitVec.ofNat 32 1023)) = 1#1
  rw [wrapped_positions, cmpi_sge_ofNat_zero (by omega), cmpi_sle_ofNat (by omega) (by norm_num) (by omega)]
  rfl

variable {F : FTy → Type} [FloatOps F]

/-- The table looked up at the positions `0, 1, …, 1023` in order is the table. -/
theorem lookup_positions (table : FVec F S1024x96 .f32) : lookup table (iotaInDim S1024 32 0) = table := by
  funext j
  obtain ⟨r, p, rfl⟩ : ∃ (r : Fin 1024) (p : Fin 96), j = ix2 r p := ⟨j 0, j 1, eq_ix2 j⟩
  have hr := r.isLt
  unfold lookup
  rw [select_apply]
  have hc : broadcastInDim S1024x96 ![0] bcast_S1024_S1024x96_0 (inRange (wrapped (iotaInDim S1024 32 0))) (ix2 r p) = 1#1 := by
    rw [broadcastInDim_apply _ _ _ (ix2 r p) (ix1 r) (fun a => by
      match a with
      | ⟨0, _⟩ => exact (if_neg ne_one_1024).symm)]
    exact inRange_positions r
  rw [hc, select_one]
  refine (gather_rows_apply (N := 1024) (R := 1024) (C := 96) (by decide)
    gather_S1024x96_S1024x1_S1024x96_1_0_n_n_0_1_196_wf table _ r p).trans ?_
  refine congrArg table (funext fun a => ?_)
  match a with
  | ⟨0, _⟩ =>
    refine Fin.ext ?_
    show min (wrapped (iotaInDim S1024 32 0) (ix2 r ⟨0, Nat.one_pos⟩)).toInt.toNat (1024 - 1) = r.val
    rw [wrapped_positions, toInt_ofNat_of_lt (by omega), Int.toNat_natCast]
    omega
  | ⟨1, _⟩ => rfl

/-! ## The projection at an entry -/

/-- The left operand's index on its first free axis is the output's first coordinate. -/
theorem lhs_axis0 (i : S128x1024x96.Idx) (q : (dot_S128x1024x768_S96x768_S128x1024x96_2_1_01_0_n_n).contr.Idx) :
    ((dot_S128x1024x768_S96x768_S128x1024x96_2_1_01_0_n_n).lhsIdx i q 0).val = (i 0).val := by
  unfold DotDims.lhsIdx
  rw [dif_neg (show ¬(0 : Fin S128x1024x768.rank) ∈ (dot_S128x1024x768_S96x768_S128x1024x96_2_1_01_0_n_n).lhsBatch by decide),
    dif_pos (show (0 : Fin S128x1024x768.rank) ∈ (dot_S128x1024x768_S96x768_S128x1024x96_2_1_01_0_n_n).lhsNonContracting by decide)]
  rfl

/-- On its second free axis it is the output's second coordinate. -/
theorem lhs_axis1 (i : S128x1024x96.Idx) (q : (dot_S128x1024x768_S96x768_S128x1024x96_2_1_01_0_n_n).contr.Idx) :
    ((dot_S128x1024x768_S96x768_S128x1024x96_2_1_01_0_n_n).lhsIdx i q 1).val = (i 1).val := by
  unfold DotDims.lhsIdx
  rw [dif_neg (show ¬(1 : Fin S128x1024x768.rank) ∈ (dot_S128x1024x768_S96x768_S128x1024x96_2_1_01_0_n_n).lhsBatch by decide),
    dif_pos (show (1 : Fin S128x1024x768.rank) ∈ (dot_S128x1024x768_S96x768_S128x1024x96_2_1_01_0_n_n).lhsNonContracting by decide)]
  rfl

/-- On the contracted axis it is the contraction's coordinate. -/
theorem lhs_axis2 (i : S128x1024x96.Idx) (q : (dot_S128x1024x768_S96x768_S128x1024x96_2_1_01_0_n_n).contr.Idx) :
    ((dot_S128x1024x768_S96x768_S128x1024x96_2_1_01_0_n_n).lhsIdx i q 2).val = (q ⟨0, by decide⟩).val :=
  (dot_S128x1024x768_S96x768_S128x1024x96_2_1_01_0_n_n).lhsIdx_val_of_single rfl i q

/-- The right operand's index on its free axis is the output's last coordinate. -/
theorem rhs_axis0 (i : S128x1024x96.Idx) (q : (dot_S128x1024x768_S96x768_S128x1024x96_2_1_01_0_n_n).contr.Idx) :
    ((dot_S128x1024x768_S96x768_S128x1024x96_2_1_01_0_n_n).rhsIdx i q 0).val = (i 2).val := by
  unfold DotDims.rhsIdx
  rw [dif_neg (show ¬(0 : Fin S96x768.rank) ∈ (dot_S128x1024x768_S96x768_S128x1024x96_2_1_01_0_n_n).rhsBatch by decide),
    dif_pos (show (0 : Fin S96x768.rank) ∈ (dot_S128x1024x768_S96x768_S128x1024x96_2_1_01_0_n_n).rhsNonContracting by decide)]
  rfl

/-- On the contracted axis it is the contraction's coordinate. -/
theorem rhs_axis1 (i : S128x1024x96.Idx) (q : (dot_S128x1024x768_S96x768_S128x1024x96_2_1_01_0_n_n).contr.Idx) :
    ((dot_S128x1024x768_S96x768_S128x1024x96_2_1_01_0_n_n).rhsIdx i q 1).val = (q ⟨0, by decide⟩).val :=
  (dot_S128x1024x768_S96x768_S128x1024x96_2_1_01_0_n_n).rhsIdx_val_of_single rfl i q

/-- The reference's matrix product at `(b, n, p)` is the sum over the patch dimension of `patch[b, n, d] · W[p, d]`. -/
theorem projection_apply (patch : FVec Ideal S128x1024x768 .f32) (W : FVec Ideal S96x768 .f32)
    (b : Fin 128) (n : Fin 1024) (p : Fin 96) :
    Host.dotGeneral dot_S128x1024x768_S96x768_S128x1024x96_2_1_01_0_n_n none patch W (ix3 b n p)
      = ∑ d : Fin 768, patch (ix3 b n d) * W (ix2 p d) := by
  show FloatOps.dotGeneral dot_S128x1024x768_S96x768_S128x1024x96_2_1_01_0_n_n none .single patch W (ix3 b n p) = _
  rw [Ideal.dotGeneral_apply,
    ← Equiv.sum_comp (contrEquiv1 dot_S128x1024x768_S96x768_S128x1024x96_2_1_01_0_n_n 768 rfl rfl).symm]
  refine Finset.sum_congr rfl fun d _ => ?_
  have hk := contrEquiv1_symm_val dot_S128x1024x768_S96x768_S128x1024x96_2_1_01_0_n_n 768 rfl rfl d
  have el : (dot_S128x1024x768_S96x768_S128x1024x96_2_1_01_0_n_n).lhsIdx (ix3 b n p)
      ((contrEquiv1 dot_S128x1024x768_S96x768_S128x1024x96_2_1_01_0_n_n 768 rfl rfl).symm d) = ix3 b n d :=
    funext fun a => Fin.ext (by
      match a with
      | ⟨0, _⟩ => exact lhs_axis0 _ _
      | ⟨1, _⟩ => exact lhs_axis1 _ _
      | ⟨2, _⟩ => exact (lhs_axis2 _ _).trans hk)
  have er : (dot_S128x1024x768_S96x768_S128x1024x96_2_1_01_0_n_n).rhsIdx (ix3 b n p)
      ((contrEquiv1 dot_S128x1024x768_S96x768_S128x1024x96_2_1_01_0_n_n 768 rfl rfl).symm d) = ix2 p d :=
    funext fun a => Fin.ext (by
      match a with
      | ⟨0, _⟩ => exact rhs_axis0 _ _
      | ⟨1, _⟩ => exact (rhs_axis1 _ _).trans hk)
  rw [el, er]

/-! ## The reference's result is the encoding -/

/-- The reference's composed term, at the extended reals, is the encoding of its four arguments. -/
theorem encoded_eq (patch : FVec Ideal S128x1024x768 .f32) (W : FVec Ideal S96x768 .f32) (bias : FVec Ideal S96 .f32)
    (table : FVec Ideal S1024x96 .f32) :
    encoded (F := Ideal) patch W bias table = Cert.PatchEncoding.encoding patch W bias table := by
  funext i
  obtain ⟨b, n, p, rfl⟩ : ∃ (b : Fin 128) (n : Fin 1024) (p : Fin 96), i = ix3 b n p := ⟨i 0, i 1, i 2, eq_ix3 i⟩
  unfold encoded
  rw [lookup_positions, addf_apply, addf_apply, projection_apply]
  rw [broadcastInDim_apply _ bcast_S1x1x96_S128x1024x96_0_1_2 _ (ix3 b n p) (ix3 (⟨0, Nat.one_pos⟩ : Fin 1) (⟨0, Nat.one_pos⟩ : Fin 1) p)
    (fun a => by
      match a with
      | ⟨0, _⟩ => exact (if_pos rfl).symm
      | ⟨1, _⟩ => exact (if_pos rfl).symm
      | ⟨2, _⟩ => exact (if_neg ne_one_96).symm)]
  rw [broadcastInDim_apply _ bcast_S96_S1x1x96_2 _ (ix3 (⟨0, Nat.one_pos⟩ : Fin 1) (⟨0, Nat.one_pos⟩ : Fin 1) p) (ix1 p)
    (fun a => by
      match a with
      | ⟨0, _⟩ => exact (if_neg ne_one_96).symm)]
  rw [broadcastInDim_apply _ bcast_S1x1024x96_S128x1024x96_0_1_2 _ (ix3 b n p) (ix3 (⟨0, Nat.one_pos⟩ : Fin 1) n p)
    (fun a => by
      match a with
      | ⟨0, _⟩ => exact (if_pos rfl).symm
      | ⟨1, _⟩ => exact (if_neg ne_one_1024).symm
      | ⟨2, _⟩ => exact (if_neg ne_one_96).symm)]
  rw [broadcastInDim_apply _ bcast_S1024x96_S1x1024x96_1_2 _ (ix3 (⟨0, Nat.one_pos⟩ : Fin 1) n p) (ix2 n p)
    (fun a => by
      match a with
      | ⟨0, _⟩ => exact (if_neg ne_one_1024).symm
      | ⟨1, _⟩ => exact (if_neg ne_one_96).symm)]
  rfl

end Cert.ReferenceIdeal.RefValue

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.BlockValue.lean ====
/-
  One block of the kernel's output, entry by entry.

  At a grid point the kernel holds a block of four sequences of patches (`4 × 1024 × 768`), the whole weight matrix,
  the bias as a `1 × 96` row and the whole positional table. It lays the block's patches out as `4096` rows, multiplies
  them by the weight matrix contracting the 768 axis (into a zero accumulator), lays the `4096 × 96` product back out as
  `4 × 1024 × 96`, adds the bias along the last axis and then the table along the last two. Row `bb · 1024 + n` of the
  flat layout is patch `n` of the block's sequence `bb`, so the entry `(bb, n, p)` of the result is

    `(Σ_d x[bb, n, d] · W[p, d] + bias[0, p]) + table[n, p]`.
-/
import proofs.«103978_g51075751084523_cont_8to1c4_36_6_alg».proof.Proof.Gen.KernelIdeal.Skeleton
import proofs.«103978_g51075751084523_cont_8to1c4_36_6_alg».proof.Proof.LibGram
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen
open Idealize.ShloMosaic Idealize.ShloMosaic.ValueIdx

theorem ne_one_1024 : ¬ (1024 : ℕ) = 1 := by decide
theorem ne_one_96 : ¬ (96 : ℕ) = 1 := by decide

/-! ## The matrix product's operand indices -/

/-- The left operand's index on its free axis is the output's row. -/
theorem lhs_axis0 (i : S4096x96.Idx) (q : (dot_S4096x768_S96x768_S4096x96_1_1_0_0_n_n).contr.Idx) :
    ((dot_S4096x768_S96x768_S4096x96_1_1_0_0_n_n).lhsIdx i q 0).val = (i 0).val := by
  unfold DotDims.lhsIdx
  rw [dif_neg (show ¬(0 : Fin S4096x768.rank) ∈ (dot_S4096x768_S96x768_S4096x96_1_1_0_0_n_n).lhsBatch by decide),
    dif_pos (show (0 : Fin S4096x768.rank) ∈ (dot_S4096x768_S96x768_S4096x96_1_1_0_0_n_n).lhsNonContracting by decide)]
  rfl

/-- On the contracted axis it is the contraction's coordinate. -/
theorem lhs_axis1 (i : S4096x96.Idx) (q : (dot_S4096x768_S96x768_S4096x96_1_1_0_0_n_n).contr.Idx) :
    ((dot_S4096x768_S96x768_S4096x96_1_1_0_0_n_n).lhsIdx i q 1).val = (q ⟨0, by decide⟩).val :=
  (dot_S4096x768_S96x768_S4096x96_1_1_0_0_n_n).lhsIdx_val_of_single rfl i q

/-- The right operand's index on its free axis is the output's column. -/
theorem rhs_axis0 (i : S4096x96.Idx) (q : (dot_S4096x768_S96x768_S4096x96_1_1_0_0_n_n).contr.Idx) :
    ((dot_S4096x768_S96x768_S4096x96_1_1_0_0_n_n).rhsIdx i q 0).val = (i 1).val := by
  unfold DotDims.rhsIdx
  rw [dif_neg (show ¬(0 : Fin S96x768.rank) ∈ (dot_S4096x768_S96x768_S4096x96_1_1_0_0_n_n).rhsBatch by decide),
    dif_pos (show (0 : Fin S96x768.rank) ∈ (dot_S4096x768_S96x768_S4096x96_1_1_0_0_n_n).rhsNonContracting by decide)]
  rfl

/-- On the contracted axis it is the contraction's coordinate. -/
theorem rhs_axis1 (i : S4096x96.Idx) (q : (dot_S4096x768_S96x768_S4096x96_1_1_0_0_n_n).contr.Idx) :
    ((dot_S4096x768_S96x768_S4096x96_1_1_0_0_n_n).rhsIdx i q 1).val = (q ⟨0, by decide⟩).val :=
  (dot_S4096x768_S96x768_S4096x96_1_1_0_0_n_n).rhsIdx_val_of_single rfl i q

/-- The product of the flat rows with the weight matrix, into zero, at row `ρ` and column `p`: the sum over the patch
    dimension of the row's entry times the weight's. -/
theorem product_apply (A : FVec Ideal S4096x768 .f32) (W : FVec Ideal S96x768 .f32) (ρ : Fin 4096) (p : Fin 96) :
    matmul dot_S4096x768_S96x768_S4096x96_1_1_0_0_n_n none A W (constant S4096x96 .f32 0x00000000#32) (ix2 ρ p)
      = ∑ d : Fin 768, A (ix2 ρ d) * W (ix2 p d) := by
  have hk := contrEquiv1_symm_val dot_S4096x768_S96x768_S4096x96_1_1_0_0_n_n 768 rfl rfl
  refine Cert.Lib.Gram.matmul_zero_single_apply dot_S4096x768_S96x768_S4096x96_1_1_0_0_n_n 768 rfl rfl none A W (ix2 ρ p)
    (fun d => ix2 ρ d) (fun d => ix2 p d) (fun d => ?_) (fun d => ?_)
  · exact funext fun a => Fin.ext (by
      match a with
      | ⟨0, _⟩ => exact lhs_axis0 _ _
      | ⟨1, _⟩ => exact (lhs_axis1 _ _).trans (hk d))
  · exact funext fun a => Fin.ext (by
      match a with
      | ⟨0, _⟩ => exact rhs_axis0 _ _
      | ⟨1, _⟩ => exact (rhs_axis1 _ _).trans (hk d))

/-! ## The layout operations at an entry -/

/-- The block's patches laid out flat: row `bb · 1024 + n` is patch `n` of sequence `bb`. -/
theorem flat_apply (x : FVec Ideal S4x1024x768 .f32) (bb : Fin 4) (n : Fin 1024) (d : Fin 768) (h : bb.val * 1024 + n.val < 4096) :
    shapeCast S4096x768 x shapeCasts_S4x1024x768_S4096x768 (ix2 (⟨bb.val * 1024 + n.val, h⟩ : Fin 4096) d) = x (ix3 bb n d) :=
  shapeCast_apply x _ _ _ (by
    rw [Shape.rowMajor_val_three, Shape.rowMajor_val_two]
    rfl)

/-- The flat product laid back out: entry `(bb, n, p)` is row `bb · 1024 + n`, column `p`. -/
theorem unflat_apply (y : FVec Ideal S4096x96 .f32) (bb : Fin 4) (n : Fin 1024) (p : Fin 96) (h : bb.val * 1024 + n.val < 4096) :
    shapeCast S4x1024x96 y shapeCasts_S4096x96_S4x1024x96 (ix3 bb n p) = y (ix2 (⟨bb.val * 1024 + n.val, h⟩ : Fin 4096) p) :=
  shapeCast_apply y _ _ _ (by
    rw [Shape.rowMajor_val_three, Shape.rowMajor_val_two]
    rfl)

/-- The bias row, given two leading unit axes and broadcast over the block, reads the row's entry `p` everywhere. -/
theorem bias_apply (v : FVec Ideal S1x96 .f32) (bb : Fin 4) (n : Fin 1024) (p : Fin 96) :
    broadcastTo S4x1024x96 (shapeCast S1x1x96 (shapeCast S1x96 v shapeCasts_S1x96_S1x96) shapeCasts_S1x96_S1x1x96)
      broadcasts_S1x1x96_S4x1024x96 (ix3 bb n p) = v (ix2 (⟨0, Nat.one_pos⟩ : Fin 1) p) := by
  rw [broadcastTo_apply _ _ (ix3 bb n p) (ix3 (⟨0, Nat.one_pos⟩ : Fin 1) (⟨0, Nat.one_pos⟩ : Fin 1) p) (fun a => by
    match a with
    | ⟨0, _⟩ => exact (if_pos rfl).symm
    | ⟨1, _⟩ => exact (if_pos rfl).symm
    | ⟨2, _⟩ => exact (if_neg ne_one_96).symm)]
  rw [shapeCast_self]
  exact shapeCast_apply v _ _ _ (by
    rw [Shape.rowMajor_val_three, Shape.rowMajor_val_two]
    rfl)

/-- The table, given a leading unit axis and broadcast over the block's sequences, reads its entry `(n, p)`. -/
theorem table_apply (T : FVec Ideal S1024x96 .f32) (bb : Fin 4) (n : Fin 1024) (p : Fin 96) :
    broadcastTo S4x1024x96 (shapeCast S1x1024x96 T shapeCasts_S1024x96_S1x1024x96) broadcasts_S1x1024x96_S4x1024x96 (ix3 bb n p)
      = T (ix2 n p) := by
  rw [broadcastTo_apply _ _ (ix3 bb n p) (ix3 (⟨0, Nat.one_pos⟩ : Fin 1) n p) (fun a => by
    match a with
    | ⟨0, _⟩ => exact (if_pos rfl).symm
    | ⟨1, _⟩ => exact (if_neg ne_one_1024).symm
    | ⟨2, _⟩ => exact (if_neg ne_one_96).symm)]
  exact shapeCast_apply T _ _ _ (by
    rw [Shape.rowMajor_val_three, Shape.rowMajor_val_two]
    show n.val * 96 + p.val = (0 * 1024 + n.val) * 96 + p.val
    omega)

/-! ## The body's result at an entry -/

/-- THE BLOCK'S ENTRY `(bb, n, p)`: the projection of patch `n` of the block's sequence `bb` onto feature `p`, plus the
    bias row's entry `p`, plus the table's entry `(n, p)`. -/
theorem payload_apply (x : FVec Ideal S4x1024x768 .f32) (W : FVec Ideal S96x768 .f32) (v : FVec Ideal S1x96 .f32)
    (T : FVec Ideal S1024x96 .f32) (bb : Fin 4) (n : Fin 1024) (p : Fin 96) :
    k0_pay1 (F := Ideal) x W v T (ix3 bb n p)
      = (∑ d : Fin 768, x (ix3 bb n d) * W (ix2 p d)) + v (ix2 (⟨0, Nat.one_pos⟩ : Fin 1) p) + T (ix2 n p) := by
  have hb := bb.isLt
  have hn := n.isLt
  have hρ : bb.val * 1024 + n.val < 4096 := by omega
  show (shapeCast S4x1024x96
        (matmul dot_S4096x768_S96x768_S4096x96_1_1_0_0_n_n none (shapeCast S4096x768 x shapeCasts_S4x1024x768_S4096x768) W
          (constant S4096x96 .f32 0x00000000#32)) shapeCasts_S4096x96_S4x1024x96 (ix3 bb n p)
      + broadcastTo S4x1024x96 (shapeCast S1x1x96 (shapeCast S1x96 v shapeCasts_S1x96_S1x96) shapeCasts_S1x96_S1x1x96)
          broadcasts_S1x1x96_S4x1024x96 (ix3 bb n p))
      + broadcastTo S4x1024x96 (shapeCast S1x1024x96 T shapeCasts_S1024x96_S1x1024x96) broadcasts_S1x1024x96_S4x1024x96 (ix3 bb n p)
      = _
  rw [bias_apply, table_apply, unflat_apply _ bb n p hρ, product_apply]
  refine congrArg (fun s => s + v (ix2 (⟨0, Nat.one_pos⟩ : Fin 1) p) + T (ix2 n p)) ?_
  exact Finset.sum_congr rfl fun d _ => by rw [flat_apply x bb n d hρ]

end Cert.KernelIdeal.BlockValue

end
-- ==== Proof.ArrayValue.lean ====
/-
  The kernel's output array is the encoding.

  The grid has 32 points. Point `t` is handed the block of sequences `4t, …, 4t + 3` of the patch array, the whole
  weight matrix, the whole bias row (the bias vector laid out as `1 × 96` before the launch) and the whole positional
  table, and writes the block of the same four sequences of the output. So the entry `(bb, n, p)` of the block written
  at point `t` is the encoding's entry `(4t + bb, n, p)`; and every sequence `b` of the output lies in the block of
  point `b / 4`. The output array therefore ends holding the encoding of the four argument arrays.
-/
import proofs.«103978_g51075751084523_cont_8to1c4_36_6_alg».proof.Proof.Gen.KernelIdeal.Value
import proofs.«103978_g51075751084523_cont_8to1c4_36_6_alg».proof.Proof.BlockValue
import proofs.«103978_g51075751084523_cont_8to1c4_36_6_alg».proof.Proof.Spec
import Idealize.ShloMosaic.Lib.Pipeline.Value
import Idealize.ShloMosaic.Lib.StableHlo.Run
import Idealize.ShloMosaic.Lib.ValueIdx

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The encoding of the four argument arrays as launched. -/
def result (c : Dev nD) : S128x1024x96.Idx → EReal :=
  Cert.PatchEncoding.encoding (m ((c : Thread nD τ).loc main_arg0)) (m ((c : Thread nD τ).loc main_arg1))
    (m ((c : Thread nD τ).loc main_arg2)) (m ((c : Thread nD τ).loc main_arg3))

/-- Where each window's block sits at point `t`: the patch and output blocks at block row `t`, the other three windows
    at their one block. Decided over the 32 points. -/
theorem block_places : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The bias row as the region finds it is the bias vector laid out as one row. -/
theorem bias_row (c : Dev nD) :
    (V m c main_v0 : S1x96.Idx → EReal) = shapeCast S1x96 (m ((c : Thread nD τ).loc main_arg2)) shapeCasts_S96_S1x96 := by
  dsimp only [Gen.V, Gen.hostOps0]
  after_results
  rfl

/-! ## The input blocks at an entry -/

/-- The patch block at point `t`: its sequence `bb` is sequence `4t + bb` of the patch array. -/
theorem patch_block (c : Dev nD) (t : Fin cfg0.N) (bb : Fin 4) (n : Fin 1024) (d : Fin 768) (h : t.val * 4 + bb.val < 128) :
    iblk m c 0 t (ix3 bb n d) = m ((c : Thread nD τ).loc main_arg0) (ix3 (⟨t.val * 4 + bb.val, h⟩ : Fin 128) n d) := by
  obtain ⟨e0, e1, e2, -⟩ := block_places t
  show V m c main_arg0 (((cfg0.win 0).blk t).view.emb (ix3 bb n d)) = _
  rw [V_main_arg0]
  refine congrArg _ (funext fun a => Fin.ext ?_)
  match a with
  | ⟨0, _⟩ => show win0_0.index t (0 : Fin 3) * 4 + 1 * bb.val = t.val * 4 + bb.val; omega
  | ⟨1, _⟩ => show win0_0.index t (1 : Fin 3) * 1024 + 1 * n.val = n.val; omega
  | ⟨2, _⟩ => show win0_0.index t (2 : Fin 3) * 768 + 1 * d.val = d.val; omega

/-- The weight block is the weight matrix. -/
theorem weight_block (c : Dev nD) (t : Fin cfg0.N) (p : Fin 96) (d : Fin 768) :
    iblk m c 1 t (ix2 p d) = m ((c : Thread nD τ).loc main_arg1) (ix2 p d) := by
  obtain ⟨-, -, -, e0, e1, -⟩ := block_places t
  show V m c main_arg1 (((cfg0.win 1).blk t).view.emb (ix2 p d)) = _
  rw [V_main_arg1]
  refine congrArg _ (funext fun a => Fin.ext ?_)
  match a with
  | ⟨0, _⟩ => show win0_1.index t (0 : Fin 2) * 96 + 1 * p.val = p.val; omega
  | ⟨1, _⟩ => show win0_1.index t (1 : Fin 2) * 768 + 1 * d.val = d.val; omega

/-- The bias block's entry `p` is the bias vector's. -/
theorem bias_block (c : Dev nD) (t : Fin cfg0.N) (p : Fin 96) :
    iblk m c 2 t (ix2 (⟨0, Nat.one_pos⟩ : Fin 1) p) = m ((c : Thread nD τ).loc main_arg2) (ix1 p) := by
  obtain ⟨-, -, -, -, -, e0, e1, -⟩ := block_places t
  show V m c main_v0 (((cfg0.win 2).blk t).view.emb (ix2 (⟨0, Nat.one_pos⟩ : Fin 1) p)) = _
  have hemb : ((cfg0.win 2).blk t).view.emb (ix2 (⟨0, Nat.one_pos⟩ : Fin 1) p) = ix2 (⟨0, Nat.one_pos⟩ : Fin 1) p := by
    funext a; refine Fin.ext ?_
    match a with
    | ⟨0, _⟩ => show win0_2.index t (0 : Fin 2) * 1 + 1 * 0 = 0; omega
    | ⟨1, _⟩ => show win0_2.index t (1 : Fin 2) * 96 + 1 * p.val = p.val; omega
  rw [hemb, bias_row]
  exact shapeCast_apply _ _ _ _ (by
    show (S96.rowMajor (ix1 p)).val = (S1x96.rowMajor (ix2 (⟨0, Nat.one_pos⟩ : Fin 1) p)).val
    rw [Shape.rowMajor_val_one, Shape.rowMajor_val_two]
    show p.val = 0 * 96 + p.val
    omega)

/-- The table block is the positional table. -/
theorem table_block (c : Dev nD) (t : Fin cfg0.N) (n : Fin 1024) (p : Fin 96) :
    iblk m c 3 t (ix2 n p) = m ((c : Thread nD τ).loc main_arg3) (ix2 n p) := by
  obtain ⟨-, -, -, -, -, -, -, e0, e1, -⟩ := block_places t
  show V m c main_arg3 (((cfg0.win 3).blk t).view.emb (ix2 n p)) = _
  rw [V_main_arg3]
  refine congrArg _ (funext fun a => Fin.ext ?_)
  match a with
  | ⟨0, _⟩ => show win0_3.index t (0 : Fin 2) * 1024 + 1 * n.val = n.val; omega
  | ⟨1, _⟩ => show win0_3.index t (1 : Fin 2) * 96 + 1 * p.val = p.val; omega

/-! ## What a point writes back -/

/-- WHAT POINT `t` WRITES BACK is block `t` of the encoding. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zeros3]
  simp only [View.ld_unit_zero (S := S4x1024x768) zeros3, View.ld_unit_zero (S := S96x768) zeros2,
    View.ld_unit_zero (S := S1x96) zeros2, View.ld_unit_zero (S := S1024x96) zeros2]
  funext y
  obtain ⟨bb, n, p, rfl⟩ : ∃ (bb : Fin 4) (n : Fin 1024) (p : Fin 96), y = ix3 bb n p := ⟨y 0, y 1, y 2, eq_ix3 y⟩
  have ht : t.val < 32 := lt_of_lt_of_eq t.isLt N_0
  have hb := bb.isLt
  have hrow : t.val * 4 + bb.val < 128 := by omega
  obtain ⟨-, -, -, -, -, -, -, -, -, e0, e1, e2⟩ := block_places t
  show k0_pay1 (iblk m c 0 t) (iblk m c 1 t) (iblk m c 2 t) (iblk m c 3 t) (ix3 bb n p)
    = result m c (((cfg0.win 4).blk t).view.emb (ix3 bb n p))
  have hemb : ((cfg0.win 4).blk t).view.emb (ix3 bb n p) = ix3 (⟨t.val * 4 + bb.val, hrow⟩ : Fin 128) n p := by
    funext a; refine Fin.ext ?_
    match a with
    | ⟨0, _⟩ => show win0_4.index t (0 : Fin 3) * 4 + 1 * bb.val = t.val * 4 + bb.val; omega
    | ⟨1, _⟩ => show win0_4.index t (1 : Fin 3) * 1024 + 1 * n.val = n.val; omega
    | ⟨2, _⟩ => show win0_4.index t (2 : Fin 3) * 96 + 1 * p.val = p.val; omega
  rw [hemb, Cert.KernelIdeal.BlockValue.payload_apply (iblk m c 0 t) (iblk m c 1 t) (iblk m c 2 t) (iblk m c 3 t) bb n p,
    bias_block m c t p, table_block m c t n p]
  show _ = Cert.PatchEncoding.entry _ _ _ _ (⟨t.val * 4 + bb.val, hrow⟩ : Fin 128) n p
  unfold Cert.PatchEncoding.entry
  refine congrArg (fun s => s + m ((c : Thread nD τ).loc main_arg2) (ix1 p) + m ((c : Thread nD τ).loc main_arg3) (ix2 n p)) ?_
  exact Finset.sum_congr rfl fun d _ => by rw [patch_block m c t bb n d hrow, weight_block m c t p d]

/-! ## The blocks tile the array -/

/-- An index of the array is in point `t`'s block iff each coordinate is in the block's range on its axis. -/
theorem mem_block (t : Fin cfg0.N) (i : S128x1024x96.Idx) :
    i ∈ ((cfg0.win 4).blk t).view.set ↔ ∀ a : Fin 3, win0_4.index t a * S4x1024x96.size a ≤ (i a).val
      ∧ (i a).val < win0_4.index t a * S4x1024x96.size a + S4x1024x96.size a := by
  show i ∈ ((View.whole main_v1).slice (win0_4.rect t)).set ↔ _
  rw [View.set_slice_whole, Rect.mem_set_unit]
  exact Iff.rfl

/-- Every index of the output lies in the block of the point its sequence belongs to. -/
theorem covered (i : S128x1024x96.Idx) :
    ∃ t : Fin cfg0.N, (cfg0.win 4).flush t = true ∧ i ∈ ((cfg0.win 4).blk t).view.set := by
  have hi0 : (i 0).val < 128 := (i 0).isLt
  have hi1 : (i 1).val < 1024 := (i 1).isLt
  have hi2 : (i 2).val < 96 := (i 2).isLt
  have hN : cfg0.N = 32 := N_0
  have hlt : (i 0).val / 4 < cfg0.N := by rw [hN]; omega
  refine ⟨⟨(i 0).val / 4, hlt⟩, flush0_4 _, ?_⟩
  rw [mem_block]
  obtain ⟨-, -, -, -, -, -, -, -, -, e0, e1, e2⟩ := block_places ⟨(i 0).val / 4, hlt⟩
  have e0' : win0_4.index ⟨(i 0).val / 4, hlt⟩ (0 : Fin 3) = (i 0).val / 4 := e0
  intro a
  match a with
  | ⟨0, _⟩ =>
    show win0_4.index ⟨(i 0).val / 4, hlt⟩ (0 : Fin 3) * 4 ≤ (i 0).val
      ∧ (i 0).val < win0_4.index ⟨(i 0).val / 4, hlt⟩ (0 : Fin 3) * 4 + 4
    omega
  | ⟨1, _⟩ =>
    show win0_4.index ⟨(i 0).val / 4, hlt⟩ (1 : Fin 3) * 1024 ≤ (i 1).val
      ∧ (i 1).val < win0_4.index ⟨(i 0).val / 4, hlt⟩ (1 : Fin 3) * 1024 + 1024
    omega
  | ⟨2, _⟩ =>
    show win0_4.index ⟨(i 0).val / 4, hlt⟩ (2 : Fin 3) * 96 ≤ (i 2).val
      ∧ (i 2).val < win0_4.index ⟨(i 0).val / 4, hlt⟩ (2 : Fin 3) * 96 + 96
    omega

/-! ## The array after the run, and the run -/

/-- THE OUTPUT ARRAY after the run is the encoding of the argument arrays. -/
theorem final (c : Dev nD) : (dats m 0 c).arrAt 4 cfg0.N = result m c :=
  (dats m 0 c).arrAt_eq_of_cover 4 (result m c) (fun t _ => flushed_eq m c t) covered

/-- The kernel's run: every execution ends with the output at the encoding of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.lean ====
/-
  A patch encoder on the extended reals: the kernel and its reference compute the same array.

  Both programs take a batch of patch sequences `patch` (128 × 1024 × 768), a weight matrix `W` (96 × 768), a bias
  vector (96) and a positional table (1024 × 96), and return

    `encoding[b, n, p] = (Σ_d patch[b, n, d] · W[p, d] + bias[p]) + table[n, p]`     (128 × 1024 × 96).

  The kernel walks the batch four sequences at a time: at each of 32 grid points it multiplies the block's 4096 patches
  by the weight matrix in one matrix product into a zero accumulator, and adds the bias and then the table before
  writing the block of the output; the blocks tile the output. The reference takes one matrix product over the whole
  batch, adds the bias, and adds the table after looking it up at the positions `0, …, 1023` in order — a lookup that
  returns the table itself, every position lying inside it. A matrix product into zero and the host's are both the
  plain sum over the contracted axis, and the two additions are grouped alike on both sides, so no law of the extended
  reals beyond reading both sides entry by entry is needed, and the inputs' finiteness is never used.

  The kernel's frame and the idealized kernel's are the generated ones; the reference has no kernel, and its frame is
  its run with the result dropped. The idealization rewrote nothing, so there is nothing to preserve.
-/
import proofs.«103978_g51075751084523_cont_8to1c4_36_6_alg».proof.Defs
import proofs.«103978_g51075751084523_cont_8to1c4_36_6_alg».proof.Proof.Gen.Kernel
import proofs.«103978_g51075751084523_cont_8to1c4_36_6_alg».proof.Proof.Gen.Kernel.Skeleton
import proofs.«103978_g51075751084523_cont_8to1c4_36_6_alg».proof.Proof.Gen.Kernel.Launch
import proofs.«103978_g51075751084523_cont_8to1c4_36_6_alg».proof.Proof.Gen.Kernel.Points
import proofs.«103978_g51075751084523_cont_8to1c4_36_6_alg».proof.Proof.Gen.Kernel.Frame
import proofs.«103978_g51075751084523_cont_8to1c4_36_6_alg».proof.Proof.Gen.KernelIdeal
import proofs.«103978_g51075751084523_cont_8to1c4_36_6_alg».proof.Proof.Gen.KernelIdeal.Skeleton
import proofs.«103978_g51075751084523_cont_8to1c4_36_6_alg».proof.Proof.Gen.KernelIdeal.Launch
import proofs.«103978_g51075751084523_cont_8to1c4_36_6_alg».proof.Proof.Gen.KernelIdeal.Points
import proofs.«103978_g51075751084523_cont_8to1c4_36_6_alg».proof.Proof.Gen.KernelIdeal.Frame
import proofs.«103978_g51075751084523_cont_8to1c4_36_6_alg».proof.Proof.Gen.KernelIdeal.Value
import proofs.«103978_g51075751084523_cont_8to1c4_36_6_alg».proof.Proof.Gen.ReferenceIdeal
import proofs.«103978_g51075751084523_cont_8to1c4_36_6_alg».proof.Proof.Gen.Pre_finite_inputs
import proofs.«103978_g51075751084523_cont_8to1c4_36_6_alg».proof.Proof.ReferenceRun
import proofs.«103978_g51075751084523_cont_8to1c4_36_6_alg».proof.Proof.RefValue
import proofs.«103978_g51075751084523_cont_8to1c4_36_6_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2)
    (Cert.ReferenceIdeal.HandRun.run (F := Ideal) m ρ)

/-- From memories that agree on the four arguments, the kernel's output array ends at the encoding of its arguments and
    the reference's result at the encoding of its own, which are the same arrays: the results are equal entry by entry. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefValue.encoded_eq, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
